-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x128x128 : Shape := ⟨4, ![16, 256, 128, 128]⟩
abbrev S16x256 : Shape := ⟨2, ![16, 256]⟩
abbrev S16 : Shape := ⟨1, ![16]⟩
abbrev S256x16 : Shape := ⟨2, ![256, 16]⟩
abbrev S256 : Shape := ⟨1, ![256]⟩
abbrev S_ : Shape := ⟨0, ![]⟩

class Facts : Prop where
  bcast_S_S16x256x128x128 : S_.BroadcastsInDim S16x256x128x128 (![] : Fin 0 → Fin S16x256x128x128.rank)
  reducesTo_S16x256x128x128_S_d0_1_2_3 : S16x256x128x128.ReducesTo [0, 1, 2, 3] S_
  h_S_ : 0 < S_.numel
  bcast_S_S16x256 : S_.BroadcastsInDim S16x256 (![] : Fin 0 → Fin S16x256.rank)
  reducesTo_S16x256_S_d0_1 : S16x256.ReducesTo [0, 1] S_
  bcast_S_S16 : S_.BroadcastsInDim S16 (![] : Fin 0 → Fin S16.rank)
  reducesTo_S16_S_d0 : S16.ReducesTo [0] S_
  bcast_S_S256x16 : S_.BroadcastsInDim S256x16 (![] : Fin 0 → Fin S256x16.rank)
  reducesTo_S256x16_S_d0_1 : S256x16.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x16 1) : IVec S_ 1 :=
  let main_c_5 : IVec S_ 1 := constantI S_ 1 1#1
  let main_v17 : IVec S_ 1 := (fun x v => Host.reduce IntOp.andi x v reducesTo_S256x16_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S16x256x128x128 .f32) (main_arg1 : FVec F S16x256 .f32) (main_arg2 : FVec F S16 .f32) (main_arg3 : FVec F S256x16 .f32) (main_arg4 : FVec F S256 .f32) : IVec S_ 1 :=
  let main_v0 : FVec F S16x256x128x128 .f32 := Host.absf main_arg0
  let main_cst : FVec F S_ .f32 := constant S_ .f32 0x7F800000#32
  let main_v1 : FVec F S16x256x128x128 .f32 := broadcastInDim S16x256x128x128 ![] bcast_S_S16x256x128x128 main_cst
  let main_v2 : IVec S16x256x128x128 1 := cmpf .olt main_v0 main_v1
  let main_c : IVec S_ 1 := constantI S_ 1 1#1
  let main_v3 : IVec S_ 1 := (fun x v => Host.reduce IntOp.andi x v reducesTo_S16x256x128x128_S_d0_1_2_3 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S256x16 .f32 := Host.absf main_arg3
  let main_cst_4 : FVec F S_ .f32 := constant S_ .f32 0x7F800000#32
  let main_v15 : FVec F S256x16 .f32 := broadcastInDim S256x16 ![] bcast_S_S256x16 main_cst_4
  let main_v16 : IVec S256x16 1 := cmpf .olt main_v14 main_v15
  fn_part1 (F := F) main_arg4 main_v13 main_v16
-- ==== Kernel.lean ====
abbrev S16x256x128x128 : Shape := ⟨4, ![16, 256, 128, 128]⟩
abbrev S16x256 : Shape := ⟨2, ![16, 256]⟩
abbrev S16 : Shape := ⟨1, ![16]⟩
abbrev S256x16 : Shape := ⟨2, ![256, 16]⟩
abbrev S256 : Shape := ⟨1, ![256]⟩
abbrev S1x16 : Shape := ⟨2, ![1, 16]⟩
abbrev S1x256 : Shape := ⟨2, ![1, 256]⟩
abbrev S16x256x1x1 : Shape := ⟨4, ![16, 256, 1, 1]⟩
abbrev S1x256x128x128 : Shape := ⟨4, ![1, 256, 128, 128]⟩
abbrev S1x256x1x1 : Shape := ⟨4, ![1, 256, 1, 1]⟩
abbrev S1x256x64x128 : Shape := ⟨4, ![1, 256, 64, 128]⟩

abbrev nBuf : Space → Nat
  | .hbm => 9
  | .vmem => 14
  | .smem => 0
  | _ => 0

abbrev bufTy : (tb : Table) → Fin (tcTables nBuf tb) → BufTy
  | .hbm, ⟨0, _⟩ => ⟨S16x256x128x128, .f32⟩
  | .hbm, ⟨1, _⟩ => ⟨S16x256, .f32⟩
  | .hbm, ⟨2, _⟩ => ⟨S16, .f32⟩
  | .hbm, ⟨3, _⟩ => ⟨S256x16, .f32⟩
  | .hbm, ⟨4, _⟩ => ⟨S256, .f32⟩
  | .hbm, ⟨5, _⟩ => ⟨S1x16, .f32⟩
  | .hbm, ⟨6, _⟩ => ⟨S1x256, .f32⟩
  | .hbm, ⟨7, _⟩ => ⟨S16x256x1x1, .f32⟩
  | .hbm, ⟨8, _⟩ => ⟨S16x256x128x128, .f32⟩
  | .local _ .vmem, ⟨0, _⟩ => ⟨S1x256x128x128, .f32⟩
  | .local _ .vmem, ⟨1, _⟩ => ⟨S1x256x128x128, .f32⟩
  | .local _ .vmem, ⟨2, _⟩ => ⟨S16x256, .f32⟩
  | .local _ .vmem, ⟨3, _⟩ => ⟨S1x16, .f32⟩
  | .local _ .vmem, ⟨4, _⟩ => ⟨S256x16, .f32⟩
  | .local _ .vmem, ⟨5, _⟩ => ⟨S1x256, .f32⟩
  | .local _ .vmem, ⟨6, _⟩ => ⟨S1x256x1x1, .f32⟩
  | .local _ .vmem, ⟨7, _⟩ => ⟨S1x256x1x1, .f32⟩
  | .local _ .vmem, ⟨8, _⟩ => ⟨S1x256x64x128, .f32⟩
  | .local _ .vmem, ⟨9, _⟩ => ⟨S1x256x64x128, .f32⟩
  | .local _ .vmem, ⟨10, _⟩ => ⟨S1x256x1x1, .f32⟩
  | .local _ .vmem, ⟨11, _⟩ => ⟨S1x256x1x1, .f32⟩
  | .local _ .vmem, ⟨12, _⟩ => ⟨S1x256x64x128, .f32⟩
  | .local _ .vmem, ⟨13, _⟩ => ⟨S1x256x64x128, .f32⟩
  | _, _ => ⟨S16x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![16, 2], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S1x256x64x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x1x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x256x64x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S16_S1x16 : S16.ShapeCasts S1x16
  shapeCasts_S256_S1x256 : S256.ShapeCasts S1x256
  inb_S1x256x128x128_S1x256x128x128_0_0_0_0 : ∀ a, (![0, 0, 0, 0] : Fin 4 → Nat) a + S1x256x128x128.size a ≤ S1x256x128x128.size a
  h_S1x256x128x128 : 0 < S1x256x128x128.numel
  reduces_S1x256x128x128_S1x256 : S1x256x128x128.Reduces [2, 3] S1x256
  inb_S16x256_S16x256_0_0 : ∀ a, (![0, 0] : Fin 2 → Nat) a + S16x256.size a ≤ S16x256.size a
  h_S16x256 : 0 < S16x256.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  inb_S256x16_S256x16_0_0 : ∀ a, (![0, 0] : Fin 2 → Nat) a + S256x16.size a ≤ S256x16.size a
  h_S256x16 : 0 < S256x16.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S1x256_S1x256x1x1 : S1x256.ShapeCasts S1x256x1x1
  inb_S1x256x1x1_S1x256x1x1_0_0_0_0 : ∀ a, (![0, 0, 0, 0] : Fin 4 → Nat) a + S1x256x1x1.size a ≤ S1x256x1x1.size a
  h_S1x256x1x1 : 0 < S1x256x1x1.numel
  inb_S1x256x64x128_S1x256x64x128_0_0_0_0 : ∀ a, (![0, 0, 0, 0] : Fin 4 → Nat) a + S1x256x64x128.size a ≤ S1x256x64x128.size a
  h_S1x256x64x128 : 0 < S1x256x64x128.numel
  shapeCasts_S1x256x1x1_S1x256x1x1 : S1x256x1x1.ShapeCasts S1x256x1x1
  broadcasts_S1x256x1x1_S1x256x64x128 : S1x256x1x1.Broadcasts S1x256x64x128
  dot_S1x256_S16x256_S1x16_1_1_0_0_n_n_wf : DotDims.WF S1x256 S16x256 S1x16 [1] [1] [0] [0] [] []
  dot_S1x16_S256x16_S1x256_1_1_0_0_n_n_wf : DotDims.WF S1x16 S256x16 S1x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x128x128.size a ≤ S16x256x128x128.size a
  hwx0_0 : ∀ i : grid0.Coords, EltTy.bits .f32 = 32 ∨ (Rect.block (s := S16x256x128x128) S1x256x128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S16x256.size a
  hwx0_1 : ∀ i : grid0.Coords, EltTy.bits .f32 = 32 ∨ (Rect.block (s := S16x256) S16x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x16.size a ≤ S256x16.size a
  hwx0_3 : ∀ i : grid0.Coords, EltTy.bits .f32 = 32 ∨ (Rect.block (s := S256x16) S256x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x1x1.size a ≤ S16x256x1x1.size a
  hwx0_5 : ∀ i : grid0.Coords, EltTy.bits .f32 = 32 ∨ (Rect.block (s := S16x256x1x1) S1x256x1x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x64x128.size a ≤ S16x256x128x128.size a
  hwx1_0 : ∀ i : grid1.Coords, EltTy.bits .f32 = 32 ∨ (Rect.block (s := S16x256x128x128) S1x256x64x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x1x1.size a ≤ S16x256x1x1.size a
  hwx1_1 : ∀ i : grid1.Coords, EltTy.bits .f32 = 32 ∨ (Rect.block (s := S16x256x1x1) S1x256x1x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x64x128.size a ≤ S16x256x128x128.size a
  hwx1_2 : ∀ i : grid1.Coords, EltTy.bits .f32 = 32 ∨ (Rect.block (s := S16x256x128x128) S1x256x64x128.size (cc1_transform_2 i) (hinb1_2 i)).WholeWords (EltTy.packing .f32)

variable [Facts₀]

def dot_S1x256_S16x256_S1x16_1_1_0_0_n_n : DotDims S1x256 S16x256 S1x16 where
  lhsContracting := [1]
  rhsContracting := [1]
  lhsNonContracting := [0]
  rhsNonContracting := [0]
  lhsBatch := []
  rhsBatch := []
  wf := dot_S1x256_S16x256_S1x16_1_1_0_0_n_n_wf
def dot_S1x16_S256x16_S1x256_1_1_0_0_n_n : DotDims S1x16 S256x16 S1x256 where
  lhsContracting := [1]
  rhsContracting := [1]
  lhsNonContracting := [0]
  rhsNonContracting := [0]
  lhsBatch := []
  rhsBatch := []
  wf := dot_S1x16_S256x16_S1x256_1_1_0_0_n_n_wf

abbrev win0_0 : Pipeline.Window sig grid0 :=
  Pipeline.Window.ofSpec (Memref.whole main_arg0) S1x256x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x256x1x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S1x256x64x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x256x1x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x256x64x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16x256x128x128 : Shape := ⟨4, ![16, 256, 128, 128]⟩
abbrev S16x256 : Shape := ⟨2, ![16, 256]⟩
abbrev S16 : Shape := ⟨1, ![16]⟩
abbrev S256x16 : Shape := ⟨2, ![256, 16]⟩
abbrev S256 : Shape := ⟨1, ![256]⟩
abbrev S_ : Shape := ⟨0, ![]⟩
abbrev S16x16 : Shape := ⟨2, ![16, 16]⟩
abbrev S1x16 : Shape := ⟨2, ![1, 16]⟩
abbrev S1x256 : Shape := ⟨2, ![1, 256]⟩
abbrev S16x256x1x1 : Shape := ⟨4, ![16, 256, 1, 1]⟩

abbrev nBuf : Space → Nat
  | .hbm => 32
  | .vmem => 0
  | .smem => 0
  | _ => 0

abbrev bufTy : (tb : Table) → Fin (tcTables nBuf tb) → BufTy
  | .hbm, ⟨0, _⟩ => ⟨S16x256x128x128, .f32⟩
  | .hbm, ⟨1, _⟩ => ⟨S16x256, .f32⟩
  | .hbm, ⟨2, _⟩ => ⟨S16, .f32⟩
  | .hbm, ⟨3, _⟩ => ⟨S256x16, .f32⟩
  | .hbm, ⟨4, _⟩ => ⟨S256, .f32⟩
  | .hbm, ⟨5, _⟩ => ⟨S_, .f32⟩
  | .hbm, ⟨6, _⟩ => ⟨S16x256, .f32⟩
  | .hbm, ⟨7, _⟩ => ⟨S_, .f32⟩
  | .hbm, ⟨8, _⟩ => ⟨S16x256, .f32⟩
  | .hbm, ⟨9, _⟩ => ⟨S16x256, .f32⟩
  | .hbm, ⟨10, _⟩ => ⟨S16x16, .f32⟩
  | .hbm, ⟨11, _⟩ => ⟨S1x16, .f32⟩
  | .hbm, ⟨12, _⟩ => ⟨S16x16, .f32⟩
  | .hbm, ⟨13, _⟩ => ⟨S16x16, .f32⟩
  | .hbm, ⟨14, _⟩ => ⟨S_, .f32⟩
  | .hbm, ⟨15, _⟩ => ⟨S16x16, .f32⟩
  | .hbm, ⟨16, _⟩ => ⟨S16x16, .f32⟩
  | .hbm, ⟨17, _⟩ => ⟨S16x256, .f32⟩
  | .hbm, ⟨18, _⟩ => ⟨S1x256, .f32⟩
  | .hbm, ⟨19, _⟩ => ⟨S16x256, .f32⟩
  | .hbm, ⟨20, _⟩ => ⟨S16x256, .f32⟩
  | .hbm, ⟨21, _⟩ => ⟨S16x256, .f32⟩
  | .hbm, ⟨22, _⟩ => ⟨S16x256, .f32⟩
  | .hbm, ⟨23, _⟩ => ⟨S_, .f32⟩
  | .hbm, ⟨24, _⟩ => ⟨S16x256, .f32⟩
  | .hbm, ⟨25, _⟩ => ⟨S16x256, .f32⟩
  | .hbm, ⟨26, _⟩ => ⟨S_, .f32⟩
  | .hbm, ⟨27, _⟩ => ⟨S16x256, .f32⟩
  | .hbm, ⟨28, _⟩ => ⟨S16x256, .f32⟩
  | .hbm, ⟨29, _⟩ => ⟨S16x256x1x1, .f32⟩
  | .hbm, ⟨30, _⟩ => ⟨S16x256x128x128, .f32⟩
  | .hbm, ⟨31, _⟩ => ⟨S16x256x128x128, .f32⟩
  | _, _ => ⟨S16x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_cst : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]

class Facts₀ : Prop where
  reducesTo_S16x256x128x128_S16x256_d2_3 : S16x256x128x128.ReducesTo [2, 3] S16x256
  h_S_ : 0 < S_.numel
  bcast_S_S16x256 : S_.BroadcastsInDim S16x256 (![] : Fin 0 → Fin S16x256.rank)
  bcast_S16_S1x16_1 : S16.BroadcastsInDim S1x16 (![1] : Fin 1 → Fin S1x16.rank)
  bcast_S1x16_S16x16_0_1 : S1x16.BroadcastsInDim S16x16 (![0, 1] : Fin 2 → Fin S16x16.rank)
  bcast_S_S16x16 : S_.BroadcastsInDim S16x16 (![] : Fin 0 → Fin S16x16.rank)
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  bcast_S16x256_S16x256x1x1_0_1 : S16x256.BroadcastsInDim S16x256x1x1 (![0, 1] : Fin 2 → Fin S16x256x1x1.rank)
  bcast_S16x256x1x1_S16x256x128x128_0_1_2_3 : S16x256x1x1.BroadcastsInDim S16x256x128x128 (![0, 1, 2, 3] : Fin 4 → Fin S16x256x128x128.rank)
  dot_S16x256_S16x256_S16x16_1_1_0_0_n_n_wf : DotDims.WF S16x256 S16x256 S16x16 [1] [1] [0] [0] [] []
  dot_S16x16_S256x16_S16x256_1_1_0_0_n_n_wf : DotDims.WF S16x16 S256x16 S16x256 [1] [1] [0] [0] [] []

variable [Facts₀]

def dot_S16x256_S16x256_S16x16_1_1_0_0_n_n : DotDims S16x256 S16x256 S16x16 where
  lhsContracting := [1]
  rhsContracting := [1]
  lhsNonContracting := [0]
  rhsNonContracting := [0]
  lhsBatch := []
  rhsBatch := []
  wf := dot_S16x256_S16x256_S16x16_1_1_0_0_n_n_wf
def dot_S16x16_S256x16_S16x256_1_1_0_0_n_n : DotDims S16x16 S256x16 S16x256 where
  lhsContracting := [1]
  rhsContracting := [1]
  lhsNonContracting := [0]
  rhsNonContracting := [0]
  lhsBatch := []
  rhsBatch := []
  wf := dot_S16x16_S256x16_S16x256_1_1_0_0_n_n_wf

class Facts : Prop extends Facts₀ where

variable [Facts]
-- ==== Proof.Spec.lean ====
/-
  The squeeze-and-excite gate, stated once on the extended reals.

  For an input x of shape [n, 256, 128, 128]: the mean of x[b, c, ·, ·] over the 128 × 128 spatial positions (their sum
  divided by 16384); a two-layer channel map on the 256 means of one batch entry — 256 → 16 with a bias and a maximum
  with zero, then 16 → 256 with a bias and the logistic function — giving one gate per (b, c); and the result
  x[b, c, h, w] · gate[b, c]. The channel map is written over plain functions of the coordinates, so that the same
  definition reads one batch entry's block and the whole array.
-/
import Idealize.ShloMosaic.PureOps.Ideal.Laws
import Idealize.ShloMosaic.Lib.ValueIdx

noncomputable section

namespace Cert.GateSpec

open Idealize.ShloMosaic Idealize.ShloMosaic.ValueIdx

/-- The mean of x[b, c, ·, ·]: the sum over the 128 × 128 positions divided by 16384 (the word `0x46800000`). -/
def mean {n : Nat} (x : FVec Ideal ⟨4, ![n, 256, 128, 128]⟩ .f32) (b : Fin n) (c : Fin 256) : EReal :=
  Ideal.div (∑ p : Fin 128, ∑ q : Fin 128, x (ix4 b c p q)) (Ideal.ofBits .f32 0x46800000#32)

/-- The hidden layer at unit r: the means against row r of the first weight matrix, plus the bias, kept when
    positive (the maximum with the zero word). -/
def hidden (μ : Fin 256 → EReal) (w1 : Fin 16 → Fin 256 → EReal) (b1 : Fin 16 → EReal) (r : Fin 16) : EReal :=
  max ((∑ k : Fin 256, μ k * w1 r k) + b1 r) (Ideal.ofBits .f32 0x00000000#32)

/-- The gate of channel c: the hidden layer against row c of the second weight matrix, plus the bias, through the
    logistic function 1 / (1 + e^(-v)). -/
def channelGate (μ : Fin 256 → EReal) (w1 : Fin 16 → Fin 256 → EReal) (b1 : Fin 16 → EReal)
    (w2 : Fin 256 → Fin 16 → EReal) (b2 : Fin 256 → EReal) (c : Fin 256) : EReal :=
  Ideal.logistic ((∑ r : Fin 16, hidden μ w1 b1 r * w2 c r) + b2 c)

/-- The gate of (b, c) from the five argument arrays. -/
def gate (x : FVec Ideal ⟨4, ![16, 256, 128, 128]⟩ .f32) (w1 : FVec Ideal ⟨2, ![16, 256]⟩ .f32)
    (b1 : FVec Ideal ⟨1, ![16]⟩ .f32) (w2 : FVec Ideal ⟨2, ![256, 16]⟩ .f32) (b2 : FVec Ideal ⟨1, ![256]⟩ .f32)
    (b : Fin 16) (c : Fin 256) : EReal :=
  channelGate (mean x b) (fun r k => w1 (ix2 r k)) (fun r => b1 (ix1 r)) (fun c r => w2 (ix2 c r)) (fun c => b2 (ix1 c)) c

/-- The gates as a [16, 256, 1, 1] array. -/
def gateArr (x : FVec Ideal ⟨4, ![16, 256, 128, 128]⟩ .f32) (w1 : FVec Ideal ⟨2, ![16, 256]⟩ .f32)
    (b1 : FVec Ideal ⟨1, ![16]⟩ .f32) (w2 : FVec Ideal ⟨2, ![256, 16]⟩ .f32) (b2 : FVec Ideal ⟨1, ![256]⟩ .f32) :
    FVec Ideal ⟨4, ![16, 256, 1, 1]⟩ .f32 :=
  fun i => gate x w1 b1 w2 b2 (i 0) (i 1)

/-- The result: every entry of x times the gate of its batch entry and channel. -/
def gated (x : FVec Ideal ⟨4, ![16, 256, 128, 128]⟩ .f32) (w1 : FVec Ideal ⟨2, ![16, 256]⟩ .f32)
    (b1 : FVec Ideal ⟨1, ![16]⟩ .f32) (w2 : FVec Ideal ⟨2, ![256, 16]⟩ .f32) (b2 : FVec Ideal ⟨1, ![256]⟩ .f32) :
    FVec Ideal ⟨4, ![16, 256, 128, 128]⟩ .f32 :=
  fun i => x i * gate x w1 b1 w2 b2 (i 0) (i 1)

/-- The word `0x3F800000` is the number one. -/
theorem ofBits_one : Ideal.ofBits .f32 0x3F800000#32 = 1 := IdealRules.sign_bit.ideal_onePat .f32

/-- The logistic function spelt with the one word: 1 / (1 + e^(-v)) with both ones written as `0x3F800000`. -/
theorem logistic_spelt (v : EReal) :
    Ideal.div (Ideal.ofBits .f32 0x3F800000#32) (Ideal.ofBits .f32 0x3F800000#32 + Ideal.exp (-v)) = Ideal.logistic v := by
  rw [ofBits_one]; rfl

end Cert.GateSpec

end
-- ==== Proof.LibPoolSum.lean ====
/-
  A sum over the last two axes of a rank-4 array.

  Reducing an [A, B, C, D] array over its axes 2 and 3 leaves an [A, B] array whose entry (a, b) collects the source
  entries (a, b, p, q) for every p < C and q < D. The reduction is stated in the library as a sum over the set of source
  indices that drop to (a, b); here that set is put in bijection with the pairs (p, q), so the reduction reads as the
  double sum over p and q. Nothing here mentions a particular program.
-/
import Idealize.ShloMosaic.PureOps.Ideal.Laws
import Idealize.ShloMosaic.Lib.ValueIdx

noncomputable section

namespace Cert.LibPoolSum

open Idealize.ShloMosaic Idealize.ShloMosaic.ValueIdx

variable {A B C D : Nat}

/-- For any map `drop` from rank-4 indices to rank-2 indices that keeps the first two coordinates, the indices
    dropping to `j`, summed, are the pairs (p, q) of the last two coordinates, summed: i ↦ (i 2, i 3) and
    (p, q) ↦ (j 0, j 1, p, q) are inverse to each other between the two index sets. -/
theorem sum_filter_drop_last2 {α : Type} [AddCommMonoid α]
    (drop : (⟨4, ![A, B, C, D]⟩ : Shape).Idx → (⟨2, ![A, B]⟩ : Shape).Idx)
    (h0 : ∀ i, (drop i 0).val = (i 0).val) (h1 : ∀ i, (drop i 1).val = (i 1).val)
    (x : (⟨4, ![A, B, C, D]⟩ : Shape).Idx → α) (j : (⟨2, ![A, B]⟩ : Shape).Idx) :
    ∑ i ∈ Finset.univ.filter (fun i => drop i = j), x i = ∑ p : Fin C, ∑ q : Fin D, x (ix4 (j 0) (j 1) p q) := by
  refine Eq.trans ?_ (Finset.sum_product' (Finset.univ : Finset (Fin C)) (Finset.univ : Finset (Fin D))
    (fun p q => x (ix4 (j 0) (j 1) p q)))
  -- an index that drops to `j` is `j`'s two coordinates followed by its own last two
  have back : ∀ i, drop i = j → ix4 (j 0) (j 1) (i 2) (i 3) = i := fun i hi => by
    funext a
    match a with
    | ⟨0, _⟩ => exact Fin.ext (by rw [← hi]; exact h0 i)
    | ⟨1, _⟩ => exact Fin.ext (by rw [← hi]; exact h1 i)
    | ⟨2, _⟩ => rfl
    | ⟨3, _⟩ => rfl
  refine Finset.sum_nbij' (fun i => ((i 2 : Fin C), (i 3 : Fin D))) (fun pq => ix4 (j 0) (j 1) pq.1 pq.2) ?_ ?_ ?_ ?_ ?_
  · intro i _; exact Finset.mem_product.2 ⟨Finset.mem_univ _, Finset.mem_univ _⟩
  · intro pq _
    refine Finset.mem_filter.2 ⟨Finset.mem_univ _, ?_⟩
    funext b
    match b with
    | ⟨0, _⟩ => exact Fin.ext (h0 _)
    | ⟨1, _⟩ => exact Fin.ext (h1 _)
  · intro i hi; exact back i (Finset.mem_filter.1 hi).2
  · intro pq _; rfl
  · intro i hi; exact congrArg x (back i (Finset.mem_filter.1 hi).2).symm

/-- A lane reduction `vector.multi_reduction <add>` over axes 2 and 3, read on the extended reals at (a, b): the double
    sum of the source over the two reduced coordinates. -/
theorem reduceAdd_last2 (h : (⟨4, ![A, B, C, D]⟩ : Shape).Reduces [2, 3] ⟨2, ![A, B]⟩)
    (x : (⟨4, ![A, B, C, D]⟩ : Shape).Idx → EReal) (j : (⟨2, ![A, B]⟩ : Shape).Idx) :
    Ideal.reduceAdd h x j = ∑ p : Fin C, ∑ q : Fin D, x (ix4 (j 0) (j 1) p q) :=
  sum_filter_drop_last2 h.drop (fun _ => rfl) (fun _ => rfl) x j

/-- The host's `stablehlo.reduce … add` over axes 2 and 3, read on the extended reals at (a, b): the initial value
    plus the same double sum. -/
theorem hostReduceAdd_last2 (h : (⟨4, ![A, B, C, D]⟩ : Shape).ReducesTo [2, 3] ⟨2, ![A, B]⟩)
    (x : (⟨4, ![A, B, C, D]⟩ : Shape).Idx → EReal) (init : EReal) (j : (⟨2, ![A, B]⟩ : Shape).Idx) :
    Ideal.hostReduceAdd h x init j = init + ∑ p : Fin C, ∑ q : Fin D, x (ix4 (j 0) (j 1) p q) :=
  congrArg (init + ·) (sum_filter_drop_last2 h.drop (fun _ => rfl) (fun _ => rfl) x j)

end Cert.LibPoolSum

end
-- ==== Proof.RefValue.lean ====
/-
  The reference computes the gated array.

  Read stage by stage at an index, the reference's host program is: the sum of x[b, c, ·, ·] from a zero initial value,
  divided by 16384 (the mean); the means of batch entry b against row r of the first weight matrix, plus the bias, maximum
  with zero (the hidden layer); the hidden layer against row c of the second weight matrix, plus the bias, through
  1 / (1 + e^(-v)) spelt with negate, exponential, add and divide (the gate); and x times the gate broadcast over the
  spatial positions. Each stage is the specification's function of the same name: the zero initial value is the additive
  identity, and 1 / (1 + e^(-v)) is the logistic function by definition.
-/
import proofs.«103084_j661424963697_1_alg».proof.Proof.Gen.ReferenceIdeal.Read
import proofs.«103084_j661424963697_1_alg».proof.Proof.Spec
import proofs.«103084_j661424963697_1_alg».proof.Proof.LibPoolSum

noncomputable section

namespace Cert.ReferenceIdeal.RefValue

open Cert.ReferenceIdeal Cert.ReferenceIdeal.Gen Cert.ReferenceIdeal.Read
open Idealize.ShloMosaic Idealize.ShloMosaic.ValueIdx Cert.GateSpec

variable (x0 : FVec Ideal S16x256x128x128 .f32) (x1 : FVec Ideal S16x256 .f32) (x2 : FVec Ideal S16 .f32)
  (x3 : FVec Ideal S256x16 .f32) (x4 : FVec Ideal S256 .f32)

/-- The reference's mean at (b, c): its sum over the two spatial axes starts from the zero word, which adds nothing. -/
theorem mean_eq (j : S16x256.Idx) : val_main_v2 (F := Ideal) x0 j = mean x0 (j 0) (j 1) := by
  rw [val_main_v2_apply, val_main_v1_apply, val_main_cst_0_apply]
  show Ideal.div (Ideal.hostReduceAdd reducesTo_S16x256x128x128_S16x256_d2_3 x0 (Ideal.ofBits .f32 0x00000000#32) j)
    (Ideal.ofBits .f32 0x46800000#32) = _
  rw [Cert.LibPoolSum.hostReduceAdd_last2, Ideal.ofBits_zero_f32, zero_add]
  rfl

/-- The reference's hidden layer at (b, r). -/
theorem hidden_eq (i : S16x16.Idx) :
    val_main_v7 (F := Ideal) x0 x1 x2 i
      = hidden (mean x0 (i 0)) (fun r k => x1 (ix2 r k)) (fun r => x2 (ix1 r)) (i 1) := by
  have el : ∀ k : Fin 256, lidx_main_v3 i k = ix2 (i 0) k := fun k =>
    funext fun a => by match a with | ⟨0, _⟩ => rfl | ⟨1, _⟩ => rfl
  have er : ∀ k : Fin 256, ridx_main_v3 i k = ix2 (i 1) k := fun k =>
    funext fun a => by match a with | ⟨0, _⟩ => rfl | ⟨1, _⟩ => rfl
  have eb : idx_main_v4 (idx_main_v5 i) = ix1 (i 1) :=
    funext fun a => by match a with | ⟨0, _⟩ => rfl
  have hm : ∀ k : Fin 256, val_main_v2 (F := Ideal) x0 (lidx_main_v3 i k) = mean x0 (i 0) k := fun k => by
    rw [el k]; exact mean_eq x0 (ix2 (i 0) k)
  rw [val_main_v7_apply, val_main_v6_apply, val_main_v3_apply, val_main_v5_apply, val_main_v4_apply,
    val_main_call0_v0_apply, val_main_call0_cst_apply, eb]
  simp only [hm, er]
  rfl

/-- The reference's gate at (b, c): negate, exponential, add one, divide one by it is the logistic function. -/
theorem gate_eq (j : S16x256.Idx) :
    val_main_v17 (F := Ideal) x0 x1 x2 x3 x4 j = gate x0 x1 x2 x3 x4 (j 0) (j 1) := by
  have el : ∀ k : Fin 16, lidx_main_v8 j k = ix2 (j 0) k := fun k =>
    funext fun a => by match a with | ⟨0, _⟩ => rfl | ⟨1, _⟩ => rfl
  have er : ∀ k : Fin 16, ridx_main_v8 j k = ix2 (j 1) k := fun k =>
    funext fun a => by match a with | ⟨0, _⟩ => rfl | ⟨1, _⟩ => rfl
  have eb : idx_main_v9 (idx_main_v10 j) = ix1 (j 1) :=
    funext fun a => by match a with | ⟨0, _⟩ => rfl
  have hh : ∀ k : Fin 16, val_main_v7 (F := Ideal) x0 x1 x2 (lidx_main_v8 j k)
      = hidden (mean x0 (j 0)) (fun r k => x1 (ix2 r k)) (fun r => x2 (ix1 r)) k := fun k => by
    rw [el k]; exact hidden_eq x0 x1 x2 (ix2 (j 0) k)
  rw [val_main_v17_apply, val_main_v16_apply, val_main_cst_2_apply, val_main_v15_apply, val_main_v14_apply,
    val_main_cst_1_apply, val_main_v13_apply, val_main_v12_apply, val_main_v11_apply, val_main_v8_apply,
    val_main_v10_apply, val_main_v9_apply, eb]
  simp only [hh, er]
  unfold gate channelGate
  rw [← logistic_spelt]
  rfl

/-- The reference's result is the gated array. -/
theorem result_eq : val_main_v20 (F := Ideal) x0 x1 x2 x3 x4 = gated x0 x1 x2 x3 x4 := by
  funext i
  rw [val_main_v20_apply, val_main_v19_apply, val_main_v18_apply, gate_eq]
  rfl

end Cert.ReferenceIdeal.RefValue

end
-- ==== Proof.GatePayload.lean ====
/-
  What the two kernel bodies compute, read at an index on the extended reals.

  The first body turns one batch entry's block of x (shape [1, 256, 128, 128]) and the four small operands into that
  entry's 256 gates: a lane sum over the two spatial axes divided by 16384, a matrix product against the rows of the
  first weight matrix into a zero accumulator, the bias, a maximum with zero, a second matrix product against the rows
  of the second weight matrix, the bias, the logistic function, stored as a [1, 256, 1, 1] column. Read at (a, c, 0, 0)
  this is the specification's channel map of the block's means. The second body multiplies a [1, 256, 64, 128] block
  of x by the gate column broadcast over the two spatial axes.
-/
import proofs.«103084_j661424963697_1_alg».proof.Proof.Gen.KernelIdeal.Skeleton
import proofs.«103084_j661424963697_1_alg».proof.Proof.Spec
import proofs.«103084_j661424963697_1_alg».proof.Proof.LibPoolSum
import Idealize.ShloMosaic.Lib.Pipeline.Value
import Idealize.ShloMosaic.Lib.ValueIdx
import Idealize.ShloMosaic.PureOps.Ideal.Laws

noncomputable section

namespace Cert.KernelIdeal.GateValue

open Cert.KernelIdeal Cert.KernelIdeal.Gen
open Idealize.ShloMosaic Idealize.ShloMosaic.ValueIdx Cert.GateSpec

/-- Every index of a [1, 256, 1, 1] column is (a, c, 0, 0): the two trailing axes have one position each. -/
theorem column_index (y : S1x256x1x1.Idx) : ∃ (a : Fin 1) (c : Fin 256), y = ix4 a c 0 0 := by
  have h2 : (y 2).val < 1 := (y 2).isLt
  have h3 : (y 3).val < 1 := (y 3).isLt
  refine ⟨y 0, y 1, funext fun e => ?_⟩
  match e with
  | ⟨0, _⟩ => rfl
  | ⟨1, _⟩ => rfl
  | ⟨2, _⟩ => exact Fin.ext (by show (y 2).val = 0; omega)
  | ⟨3, _⟩ => exact Fin.ext (by show (y 3).val = 0; omega)

/-! ## The two matrix products: contraction over the second axis of both operands -/

theorem means_times_w1_lhs0 (i : S1x16.Idx) (q : dot_S1x256_S16x256_S1x16_1_1_0_0_n_n.contr.Idx) : (dot_S1x256_S16x256_S1x16_1_1_0_0_n_n.lhsIdx i q 0).val = (i 0).val := by
  unfold DotDims.lhsIdx
  rw [dif_neg (show ¬(0 : Fin S1x256.rank) ∈ dot_S1x256_S16x256_S1x16_1_1_0_0_n_n.lhsBatch by decide), dif_pos (show (0 : Fin S1x256.rank) ∈ dot_S1x256_S16x256_S1x16_1_1_0_0_n_n.lhsNonContracting by decide)]
  rfl
theorem means_times_w1_lhs1 (i : S1x16.Idx) (q : dot_S1x256_S16x256_S1x16_1_1_0_0_n_n.contr.Idx) : (dot_S1x256_S16x256_S1x16_1_1_0_0_n_n.lhsIdx i q 1).val = (q ⟨0, by decide⟩).val :=
  dot_S1x256_S16x256_S1x16_1_1_0_0_n_n.lhsIdx_val_of_single rfl i q
theorem means_times_w1_rhs0 (i : S1x16.Idx) (q : dot_S1x256_S16x256_S1x16_1_1_0_0_n_n.contr.Idx) : (dot_S1x256_S16x256_S1x16_1_1_0_0_n_n.rhsIdx i q 0).val = (i 1).val := by
  unfold DotDims.rhsIdx
  rw [dif_neg (show ¬(0 : Fin S16x256.rank) ∈ dot_S1x256_S16x256_S1x16_1_1_0_0_n_n.rhsBatch by decide), dif_pos (show (0 : Fin S16x256.rank) ∈ dot_S1x256_S16x256_S1x16_1_1_0_0_n_n.rhsNonContracting by decide)]
  rfl
theorem means_times_w1_rhs1 (i : S1x16.Idx) (q : dot_S1x256_S16x256_S1x16_1_1_0_0_n_n.contr.Idx) : (dot_S1x256_S16x256_S1x16_1_1_0_0_n_n.rhsIdx i q 1).val = (q ⟨0, by decide⟩).val :=
  dot_S1x256_S16x256_S1x16_1_1_0_0_n_n.rhsIdx_val_of_single rfl i q

/-- The first product at (a, r): the row vector of means against row r of the first weight matrix, a sum over the 256 channels. -/
theorem means_times_w1 (l : FVec Ideal S1x256 .f32) (r : FVec Ideal S16x256 .f32) (a : Fin 1) (b : Fin 16) :
    matmul dot_S1x256_S16x256_S1x16_1_1_0_0_n_n none l r (constant (F := Ideal) S1x16 .f32 0x00000000#32) (ix2 a b)
      = ∑ k : Fin 256, l (ix2 a k) * r (ix2 b k) := by
  simp only [matmul]
  rw [Ideal.matmul_constant_zero_apply, ← Equiv.sum_comp (ValueIdx.contrEquiv1 dot_S1x256_S16x256_S1x16_1_1_0_0_n_n 256 rfl rfl).symm]
  refine Finset.sum_congr rfl fun k _ => ?_
  have hk := ValueIdx.contrEquiv1_symm_val dot_S1x256_S16x256_S1x16_1_1_0_0_n_n 256 rfl rfl k
  have el : dot_S1x256_S16x256_S1x16_1_1_0_0_n_n.lhsIdx (ix2 a b) ((ValueIdx.contrEquiv1 dot_S1x256_S16x256_S1x16_1_1_0_0_n_n 256 rfl rfl).symm k) = ix2 a k := funext fun e => Fin.ext (by
    match e with
    | ⟨0, _⟩ => exact means_times_w1_lhs0 _ _
    | ⟨1, _⟩ => exact (means_times_w1_lhs1 _ _).trans hk)
  have er : dot_S1x256_S16x256_S1x16_1_1_0_0_n_n.rhsIdx (ix2 a b) ((ValueIdx.contrEquiv1 dot_S1x256_S16x256_S1x16_1_1_0_0_n_n 256 rfl rfl).symm k) = ix2 b k := funext fun e => Fin.ext (by
    match e with
    | ⟨0, _⟩ => exact means_times_w1_rhs0 _ _
    | ⟨1, _⟩ => exact (means_times_w1_rhs1 _ _).trans hk)
  rw [el, er]

theorem hidden_times_w2_lhs0 (i : S1x256.Idx) (q : dot_S1x16_S256x16_S1x256_1_1_0_0_n_n.contr.Idx) : (dot_S1x16_S256x16_S1x256_1_1_0_0_n_n.lhsIdx i q 0).val = (i 0).val := by
  unfold DotDims.lhsIdx
  rw [dif_neg (show ¬(0 : Fin S1x16.rank) ∈ dot_S1x16_S256x16_S1x256_1_1_0_0_n_n.lhsBatch by decide), dif_pos (show (0 : Fin S1x16.rank) ∈ dot_S1x16_S256x16_S1x256_1_1_0_0_n_n.lhsNonContracting by decide)]
  rfl
theorem hidden_times_w2_lhs1 (i : S1x256.Idx) (q : dot_S1x16_S256x16_S1x256_1_1_0_0_n_n.contr.Idx) : (dot_S1x16_S256x16_S1x256_1_1_0_0_n_n.lhsIdx i q 1).val = (q ⟨0, by decide⟩).val :=
  dot_S1x16_S256x16_S1x256_1_1_0_0_n_n.lhsIdx_val_of_single rfl i q
theorem hidden_times_w2_rhs0 (i : S1x256.Idx) (q : dot_S1x16_S256x16_S1x256_1_1_0_0_n_n.contr.Idx) : (dot_S1x16_S256x16_S1x256_1_1_0_0_n_n.rhsIdx i q 0).val = (i 1).val := by
  unfold DotDims.rhsIdx
  rw [dif_neg (show ¬(0 : Fin S256x16.rank) ∈ dot_S1x16_S256x16_S1x256_1_1_0_0_n_n.rhsBatch by decide), dif_pos (show (0 : Fin S256x16.rank) ∈ dot_S1x16_S256x16_S1x256_1_1_0_0_n_n.rhsNonContracting by decide)]
  rfl
theorem hidden_times_w2_rhs1 (i : S1x256.Idx) (q : dot_S1x16_S256x16_S1x256_1_1_0_0_n_n.contr.Idx) : (dot_S1x16_S256x16_S1x256_1_1_0_0_n_n.rhsIdx i q 1).val = (q ⟨0, by decide⟩).val :=
  dot_S1x16_S256x16_S1x256_1_1_0_0_n_n.rhsIdx_val_of_single rfl i q

/-- The second product at (a, c): the hidden row vector against row c of the second weight matrix, a sum over the 16 hidden units. -/
theorem hidden_times_w2 (l : FVec Ideal S1x16 .f32) (r : FVec Ideal S256x16 .f32) (a : Fin 1) (b : Fin 256) :
    matmul dot_S1x16_S256x16_S1x256_1_1_0_0_n_n none l r (constant (F := Ideal) S1x256 .f32 0x00000000#32) (ix2 a b)
      = ∑ k : Fin 16, l (ix2 a k) * r (ix2 b k) := by
  simp only [matmul]
  rw [Ideal.matmul_constant_zero_apply, ← Equiv.sum_comp (ValueIdx.contrEquiv1 dot_S1x16_S256x16_S1x256_1_1_0_0_n_n 16 rfl rfl).symm]
  refine Finset.sum_congr rfl fun k _ => ?_
  have hk := ValueIdx.contrEquiv1_symm_val dot_S1x16_S256x16_S1x256_1_1_0_0_n_n 16 rfl rfl k
  have el : dot_S1x16_S256x16_S1x256_1_1_0_0_n_n.lhsIdx (ix2 a b) ((ValueIdx.contrEquiv1 dot_S1x16_S256x16_S1x256_1_1_0_0_n_n 16 rfl rfl).symm k) = ix2 a k := funext fun e => Fin.ext (by
    match e with
    | ⟨0, _⟩ => exact hidden_times_w2_lhs0 _ _
    | ⟨1, _⟩ => exact (hidden_times_w2_lhs1 _ _).trans hk)
  have er : dot_S1x16_S256x16_S1x256_1_1_0_0_n_n.rhsIdx (ix2 a b) ((ValueIdx.contrEquiv1 dot_S1x16_S256x16_S1x256_1_1_0_0_n_n 16 rfl rfl).symm k) = ix2 b k := funext fun e => Fin.ext (by
    match e with
    | ⟨0, _⟩ => exact hidden_times_w2_rhs0 _ _
    | ⟨1, _⟩ => exact (hidden_times_w2_rhs1 _ _).trans hk)
  rw [el, er]

/-! ## The lane sum over the two spatial axes -/

/-- The block's sum over its two spatial axes at (a, c) is the double sum over the 128 × 128 positions. -/
theorem pooled_apply (v0 : FVec Ideal S1x256x128x128 .f32) (a : Fin 1) (c : Fin 256) :
    multiReduction (F := Ideal) .add [2, 3] S1x256 v0 0x00000000#32 reduces_S1x256x128x128_S1x256 (.inl rfl) rfl (ix2 a c)
      = ∑ p : Fin 128, ∑ q : Fin 128, v0 (ix4 a c p q) :=
  Cert.LibPoolSum.reduceAdd_last2 reduces_S1x256x128x128_S1x256 v0 (ix2 a c)

theorem logistic_apply {s : Shape} (x : FVec Ideal s .f32) (i : s.Idx) : logistic x i = Ideal.logistic (x i) := rfl

/-! ## The first body's stored value -/

/-- The gate column the first body stores, at (a, c, 0, 0): the channel map of the block's means, the two biases read
    from their [1, 16] and [1, 256] rows. -/
theorem gate_payload (v0 : FVec Ideal S1x256x128x128 .f32) (v4 : FVec Ideal S16x256 .f32) (v5 : FVec Ideal S1x16 .f32)
    (v11 : FVec Ideal S256x16 .f32) (v12 : FVec Ideal S1x256 .f32) (a : Fin 1) (c : Fin 256) :
    k0_pay1 (F := Ideal) v0 v4 v5 v11 v12 (ix4 a c 0 0)
      = channelGate (mean v0 a) (fun r k => v4 (ix2 r k)) (fun r => v5 (ix2 a r)) (fun c r => v11 (ix2 c r))
          (fun c => v12 (ix2 a c)) c := by
  unfold k0_pay1
  refine (shapeCast_apply _ _ (ix4 a c 0 0) (ix2 a c) (by
    rw [Shape.rowMajor_val_two, Shape.rowMajor_val_four]
    show a.val * 256 + c.val = ((a.val * 256 + c.val) * 1 + 0) * 1 + 0
    omega)).trans ?_
  simp only [logistic_apply, ValueIdx.addf_apply, ValueIdx.maximumf_apply, ValueIdx.divf_apply, ValueIdx.broadcast_apply,
    shapeCast_self, hidden_times_w2, means_times_w1]
  unfold channelGate GateSpec.hidden mean
  refine congrArg Ideal.logistic (congrArg (· + v12 (ix2 a c)) (Finset.sum_congr rfl fun r _ => ?_))
  refine congrArg (· * v11 (ix2 c r)) (congrArg (max · (Ideal.ofBits .f32 0x00000000#32))
    (congrArg (· + v5 (ix2 a r)) (Finset.sum_congr rfl fun k _ => ?_)))
  refine congrArg (· * v4 (ix2 r k)) (congrArg (Ideal.div · (Ideal.ofBits .f32 0x46800000#32)) ?_)
  exact pooled_apply v0 a k

/-! ## The second body's stored value -/

/-- The product the second body stores, at (a, c, p, q): the block's entry times the gate column's entry of channel c. -/
theorem scale_payload (v0 : FVec Ideal S1x256x64x128 .f32) (v1 : FVec Ideal S1x256x1x1 .f32)
    (a : Fin 1) (c : Fin 256) (p : Fin 64) (q : Fin 128) :
    k1_pay1 (F := Ideal) v0 v1 (ix4 a c p q) = v0 (ix4 a c p q) * v1 (ix4 a c 0 0) := by
  unfold k1_pay1
  simp only [shapeCast_self]
  refine congrArg (v0 (ix4 a c p q) * ·) ?_
  refine broadcastTo_apply v1 _ (ix4 a c p q) (ix4 a c 0 0) fun e => ?_
  have ha : a.val < 1 := a.isLt
  match e with
  | ⟨0, _⟩ => show a.val = if (1 : Nat) = 1 then 0 else a.val; rw [if_pos rfl]; omega
  | ⟨1, _⟩ => show c.val = if (256 : Nat) = 1 then 0 else c.val; rw [if_neg (by decide)]
  | ⟨2, _⟩ => show 0 = if (1 : Nat) = 1 then 0 else p.val; rw [if_pos rfl]
  | ⟨3, _⟩ => show 0 = if (1 : Nat) = 1 then 0 else q.val; rw [if_pos rfl]

end Cert.KernelIdeal.GateValue

end
-- ==== Proof.GateArray.lean ====
/-
  The gate array the first region leaves.

  The first region runs over 16 points, one per batch entry. At point t it reads batch entry t of x whole, the two
  weight matrices and the two bias rows whole, and writes entry t of the [16, 256, 1, 1] gate array. So what point t
  writes back is block t of ONE function of the arrays as the region finds them — the gate of (b, c) from the means of
  x[b, c, ·, ·] — and the 16 blocks tile the array: it ends holding that function. Stated for any region-entry
  contents `V`; the biases are read from their [1, 16] and [1, 256] rows.
-/
import proofs.«103084_j661424963697_1_alg».proof.Proof.Gen.KernelIdeal.Frame
import proofs.«103084_j661424963697_1_alg».proof.Proof.GatePayload
import Idealize.ShloMosaic.Lib.Pipeline.Value

set_option maxRecDepth 16384

noncomputable section

namespace Cert.KernelIdeal.GateValue

open Cert.KernelIdeal Cert.KernelIdeal.Gen
open Idealize.ShloMosaic Idealize.ShloMosaic.TcCoe Idealize.SL.Sem Idealize.ShloMosaic.ValueIdx Cert.GateSpec
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero4 : (![0, 0, 0, 0] : Fin 4 → Nat) = fun _ => 0 := funext fun a => by fin_cases a <;> rfl

/-- The gates from the arrays as the first region finds them. -/
def gatesOf (c : Dev nD) : S16x256x1x1.Idx → EReal := fun i =>
  channelGate (mean (V c main_arg0 : S16x256x128x128.Idx → EReal) (i 0))
    (fun r k => (V c main_arg1 : S16x256.Idx → EReal) (ix2 r k))
    (fun r => (V c main_v0 : S1x16.Idx → EReal) (ix2 0 r))
    (fun ch r => (V c main_arg3 : S256x16.Idx → EReal) (ix2 ch r))
    (fun ch => (V c main_v1 : S1x256.Idx → EReal) (ix2 0 ch)) (i 1)

/-- The six index maps over the 16 points: the x window and the gate window sit at batch entry t, every other
    coordinate of every window is block 0. -/
theorem index_maps0 : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 4) = t.val ∧ win0_5.index t (1 : Fin 4) = 0 ∧ win0_5.index t (2 : Fin 4) = 0 ∧ win0_5.index t (3 : Fin 4) = 0 :=
  (by decide +kernel : ∀ t : Fin grid0.N, _)

/-! ## Each input block read where it sits in its array -/

/-- Point t's block of x at (a, k, p, q) is x at (t, k, p, q). -/
theorem block_x (c : Dev nD) (t : Fin cfg0.N) (ht : t.val < 16) (a : Fin 1) (k : Fin 256) (p q : Fin 128) :
    (iblk0 V c 0 t : S1x256x128x128.Idx → EReal) (ix4 a k p q)
      = (V c main_arg0 : S16x256x128x128.Idx → EReal) (ix4 ⟨t.val, ht⟩ k p q) := by
  obtain ⟨e0, e1, e2, e3, -⟩ := index_maps0 t
  have ha : a.val < 1 := a.isLt
  show (V c main_arg0 : S16x256x128x128.Idx → EReal) (((cfg0.win 0).blk t).view.emb (ix4 a k p q)) = _
  refine congrArg (V c main_arg0 : S16x256x128x128.Idx → EReal) (funext fun e => Fin.ext ?_)
  match e with
  | ⟨0, _⟩ => show win0_0.index t (0 : Fin 4) * 1 + 1 * a.val = t.val; omega
  | ⟨1, _⟩ => show win0_0.index t (1 : Fin 4) * 256 + 1 * k.val = k.val; omega
  | ⟨2, _⟩ => show win0_0.index t (2 : Fin 4) * 128 + 1 * p.val = p.val; omega
  | ⟨3, _⟩ => show win0_0.index t (3 : Fin 4) * 128 + 1 * q.val = q.val; omega

/-- The first weight matrix is read whole at every point. -/
theorem block_w1 (c : Dev nD) (t : Fin cfg0.N) (r : Fin 16) (k : Fin 256) :
    (iblk0 V c 1 t : S16x256.Idx → EReal) (ix2 r k) = (V c main_arg1 : S16x256.Idx → EReal) (ix2 r k) := by
  obtain ⟨-, -, -, -, e0, e1, -⟩ := index_maps0 t
  show (V c main_arg1 : S16x256.Idx → EReal) (((cfg0.win 1).blk t).view.emb (ix2 r k)) = _
  refine congrArg (V c main_arg1 : S16x256.Idx → EReal) (funext fun e => Fin.ext ?_)
  match e with
  | ⟨0, _⟩ => show win0_1.index t (0 : Fin 2) * 16 + 1 * r.val = r.val; omega
  | ⟨1, _⟩ => show win0_1.index t (1 : Fin 2) * 256 + 1 * k.val = k.val; omega

/-- The first bias row is read whole at every point. -/
theorem block_b1 (c : Dev nD) (t : Fin cfg0.N) (a : Fin 1) (r : Fin 16) :
    (iblk0 V c 2 t : S1x16.Idx → EReal) (ix2 a r) = (V c main_v0 : S1x16.Idx → EReal) (ix2 0 r) := by
  obtain ⟨-, -, -, -, -, -, e0, e1, -⟩ := index_maps0 t
  have ha : a.val < 1 := a.isLt
  show (V c main_v0 : S1x16.Idx → EReal) (((cfg0.win 2).blk t).view.emb (ix2 a r)) = _
  refine congrArg (V c main_v0 : S1x16.Idx → EReal) (funext fun e => Fin.ext ?_)
  match e with
  | ⟨0, _⟩ => show win0_2.index t (0 : Fin 2) * 1 + 1 * a.val = 0; omega
  | ⟨1, _⟩ => show win0_2.index t (1 : Fin 2) * 16 + 1 * r.val = r.val; omega

/-- The second weight matrix is read whole at every point. -/
theorem block_w2 (c : Dev nD) (t : Fin cfg0.N) (ch : Fin 256) (r : Fin 16) :
    (iblk0 V c 3 t : S256x16.Idx → EReal) (ix2 ch r) = (V c main_arg3 : S256x16.Idx → EReal) (ix2 ch r) := by
  obtain ⟨-, -, -, -, -, -, -, -, e0, e1, -⟩ := index_maps0 t
  show (V c main_arg3 : S256x16.Idx → EReal) (((cfg0.win 3).blk t).view.emb (ix2 ch r)) = _
  refine congrArg (V c main_arg3 : S256x16.Idx → EReal) (funext fun e => Fin.ext ?_)
  match e with
  | ⟨0, _⟩ => show win0_3.index t (0 : Fin 2) * 256 + 1 * ch.val = ch.val; omega
  | ⟨1, _⟩ => show win0_3.index t (1 : Fin 2) * 16 + 1 * r.val = r.val; omega

/-- The second bias row is read whole at every point. -/
theorem block_b2 (c : Dev nD) (t : Fin cfg0.N) (a : Fin 1) (ch : Fin 256) :
    (iblk0 V c 4 t : S1x256.Idx → EReal) (ix2 a ch) = (V c main_v1 : S1x256.Idx → EReal) (ix2 0 ch) := by
  obtain ⟨-, -, -, -, -, -, -, -, -, -, e0, e1, -⟩ := index_maps0 t
  have ha : a.val < 1 := a.isLt
  show (V c main_v1 : S1x256.Idx → EReal) (((cfg0.win 4).blk t).view.emb (ix2 a ch)) = _
  refine congrArg (V c main_v1 : S1x256.Idx → EReal) (funext fun e => Fin.ext ?_)
  match e with
  | ⟨0, _⟩ => show win0_4.index t (0 : Fin 2) * 1 + 1 * a.val = 0; omega
  | ⟨1, _⟩ => show win0_4.index t (1 : Fin 2) * 256 + 1 * ch.val = ch.val; omega

/-! ## From the blocks to the array -/

/-- What point t writes back is block t of the gates. -/
theorem flushed_gates (c : Dev nD) (t : Fin cfg0.N) :
    (dat0 V c).flushed 5 t = ((cfg0.win 5).blk t).view.read (Elt Ideal) (gatesOf V c) := by
  have hN : cfg0.N = 16 := N_0
  have ht : t.val < 16 := by have := t.isLt; omega
  obtain ⟨-, -, -, -, -, -, -, -, -, -, -, -, e50, e51, e52, e53⟩ := index_maps0 t
  show (cfg0.win 5).cut (grid0.coords t) ((dat0 V c).after 5 t) = _
  rw [after0_5]
  unfold out0_5
  rw [View.canon_unit_zero zero4]
  simp only [View.ld_unit_zero (S := S1x256x128x128) zero4, View.ld_unit_zero (S := S16x256) zero2,
    View.ld_unit_zero (S := S1x16) zero2, View.ld_unit_zero (S := S256x16) zero2, View.ld_unit_zero (S := S1x256) zero2]
  funext y
  obtain ⟨a, ch, rfl⟩ := column_index y
  have ha : a.val < 1 := a.isLt
  have hemb : ((cfg0.win 5).blk t).view.emb (ix4 a ch 0 0) = (ix4 ⟨t.val, ht⟩ ch 0 0 : S16x256x1x1.Idx) :=
    funext fun e => Fin.ext (by
      match e with
      | ⟨0, _⟩ => show win0_5.index t (0 : Fin 4) * 1 + 1 * a.val = t.val; omega
      | ⟨1, _⟩ => show win0_5.index t (1 : Fin 4) * 256 + 1 * ch.val = ch.val; omega
      | ⟨2, _⟩ => show win0_5.index t (2 : Fin 4) * 1 + 1 * 0 = 0; omega
      | ⟨3, _⟩ => show win0_5.index t (3 : Fin 4) * 1 + 1 * 0 = 0; omega)
  show k0_pay1 (F := Ideal) (iblk0 V c 0 t) (iblk0 V c 1 t) (iblk0 V c 2 t) (iblk0 V c 3 t) (iblk0 V c 4 t) (ix4 a ch 0 0)
    = gatesOf V c (((cfg0.win 5).blk t).view.emb (ix4 a ch 0 0))
  rw [hemb]
  refine (gate_payload (iblk0 V c 0 t) (iblk0 V c 1 t) (iblk0 V c 2 t) (iblk0 V c 3 t) (iblk0 V c 4 t) a ch).trans ?_
  unfold gatesOf channelGate GateSpec.hidden mean
  simp only [block_x V c t ht, block_w1 V c t, block_b1 V c t, block_w2 V c t, block_b2 V c t]

/-- Every entry of the gate array is in some point's block: entry (b, c, 0, 0) in point b's. -/
theorem gates_cover (i : S16x256x1x1.Idx) :
    ∃ t : Fin cfg0.N, (cfg0.win 5).flush t = true ∧ i ∈ ((cfg0.win 5).blk t).view.set := by
  have hN : cfg0.N = 16 := N_0
  have h0 : (i 0).val < 16 := (i 0).isLt
  have h1 : (i 1).val < 256 := (i 1).isLt
  have h2 : (i 2).val < 1 := (i 2).isLt
  have h3 : (i 3).val < 1 := (i 3).isLt
  obtain ⟨t, htv⟩ : ∃ t : Fin cfg0.N, t.val = (i 0).val := ⟨⟨(i 0).val, by omega⟩, rfl⟩
  obtain ⟨-, -, -, -, -, -, -, -, -, -, -, -, e50, e51, e52, e53⟩ := index_maps0 t
  refine ⟨t, flush0_5 t, ?_⟩
  show i ∈ ((View.whole main_v2).slice (win0_5.rect t)).set
  rw [View.set_slice_whole, Rect.mem_set_unit]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 256 ≤ (i 1).val ∧ (i 1).val < win0_5.index t (1 : Fin 4) * 256 + 256; omega
  | ⟨2, _⟩ => show win0_5.index t (2 : Fin 4) * 1 ≤ (i 2).val ∧ (i 2).val < win0_5.index t (2 : Fin 4) * 1 + 1; omega
  | ⟨3, _⟩ => show win0_5.index t (3 : Fin 4) * 1 ≤ (i 3).val ∧ (i 3).val < win0_5.index t (3 : Fin 4) * 1 + 1; omega

/-- The gate array after the first region. -/
theorem gates_array (c : Dev nD) : (dat0 V c).arrAt 5 cfg0.N = gatesOf V c :=
  (dat0 V c).arrAt_eq_of_cover 5 (gatesOf V c) (fun t _ => flushed_gates V c t) gates_cover

end Cert.KernelIdeal.GateValue

end
-- ==== Proof.ScaleArray.lean ====
/-
  The result array the second region leaves.

  The second region runs over 32 points, two per batch entry: point t reads rows 64·(t mod 2) … 64·(t mod 2) + 63 of batch
  entry t / 2 of x (all 256 channels, all 128 columns) and that entry's gate column, and writes the same block of the
  result: each entry of x times the gate of its channel. So what point t writes back is block t of ONE function of the
  arrays as the region finds them, x · gate, and the 32 blocks tile the result: it ends holding that function. Stated
  for any region-entry contents `V`.
-/
import proofs.«103084_j661424963697_1_alg».proof.Proof.Gen.KernelIdeal.Frame
import proofs.«103084_j661424963697_1_alg».proof.Proof.GatePayload
import Idealize.ShloMosaic.Lib.Pipeline.Value

set_option maxRecDepth 16384

noncomputable section

namespace Cert.KernelIdeal.ScaleValue

open Cert.KernelIdeal Cert.KernelIdeal.Gen Cert.KernelIdeal.GateValue
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin4 : (![0, 0, 0, 0] : Fin 4 → Nat) = fun _ => 0 := funext fun a => by fin_cases a <;> rfl

/-- Every entry of x times the entry of a [16, 256, 1, 1] gate array for its batch entry and channel. -/
def scale (x : FVec Ideal ⟨4, ![16, 256, 128, 128]⟩ .f32) (g : FVec Ideal ⟨4, ![16, 256, 1, 1]⟩ .f32) :
    FVec Ideal ⟨4, ![16, 256, 128, 128]⟩ .f32 :=
  fun i => x i * g (ix4 (i 0) (i 1) 0 0)

/-- x times the gates, from the arrays as the second region finds them. -/
def scaledOf (c : Dev nD) : S16x256x128x128.Idx → EReal := scale (V c main_arg0) (V c main_v2)

/-- The three index maps over the 32 points: the x window and the result window sit at batch entry t / 2 and row block
    t mod 2; the gate window at batch entry t / 2. -/
theorem index_maps1 : ∀ t : Fin cfg1.N,
    win1_0.index t (0 : Fin 4) = t.val / 2 ∧ win1_0.index t (1 : Fin 4) = 0 ∧ win1_0.index t (2 : Fin 4) = t.val % 2 ∧ win1_0.index t (3 : Fin 4) = 0
    ∧ win1_1.index t (0 : Fin 4) = t.val / 2 ∧ win1_1.index t (1 : Fin 4) = 0 ∧ win1_1.index t (2 : Fin 4) = 0 ∧ win1_1.index t (3 : Fin 4) = 0
    ∧ win1_2.index t (0 : Fin 4) = t.val / 2 ∧ win1_2.index t (1 : Fin 4) = 0 ∧ win1_2.index t (2 : Fin 4) = t.val % 2 ∧ win1_2.index t (3 : Fin 4) = 0 :=
  (by decide +kernel : ∀ t : Fin grid1.N, _)

/-- What point t writes back is block t of x times the gates. -/
theorem flushed_scaled (c : Dev nD) (t : Fin cfg1.N) :
    (dat1 V c).flushed 2 t = ((cfg1.win 2).blk t).view.read (Elt Ideal) (scaledOf V c) := by
  have hN : cfg1.N = 32 := N_1
  have ht : t.val < 32 := by have := t.isLt; omega
  have hb : t.val / 2 < 16 := by omega
  obtain ⟨e00, e01, e02, e03, e10, e11, e12, e13, e20, e21, e22, e23⟩ := index_maps1 t
  show (cfg1.win 2).cut (grid1.coords t) ((dat1 V c).after 2 t) = _
  rw [after1_2]
  unfold out1_2
  rw [View.canon_unit_zero origin4]
  simp only [View.ld_unit_zero (S := S1x256x64x128) origin4, View.ld_unit_zero (S := S1x256x1x1) origin4]
  funext y
  obtain ⟨a, ch, p, q, rfl⟩ : ∃ (a : Fin 1) (ch : Fin 256) (p : Fin 64) (q : Fin 128), y = ix4 a ch p q :=
    ⟨y 0, y 1, y 2, y 3, eq_ix4 y⟩
  have ha : a.val < 1 := a.isLt
  have hp : p.val < 64 := p.isLt
  have hrow : t.val % 2 * 64 + p.val < 128 := by omega
  -- where the block's entry (a, ch, p, q) sits in the [16, 256, 128, 128] arrays
  have hemb : ((cfg1.win 2).blk t).view.emb (ix4 a ch p q)
      = (ix4 ⟨t.val / 2, hb⟩ ch ⟨t.val % 2 * 64 + p.val, hrow⟩ q : S16x256x128x128.Idx) :=
    funext fun e => Fin.ext (by
      match e with
      | ⟨0, _⟩ => show win1_2.index t (0 : Fin 4) * 1 + 1 * a.val = t.val / 2; omega
      | ⟨1, _⟩ => show win1_2.index t (1 : Fin 4) * 256 + 1 * ch.val = ch.val; omega
      | ⟨2, _⟩ => show win1_2.index t (2 : Fin 4) * 64 + 1 * p.val = t.val % 2 * 64 + p.val; omega
      | ⟨3, _⟩ => show win1_2.index t (3 : Fin 4) * 128 + 1 * q.val = q.val; omega)
  have hx : (iblk1 V c 0 t : S1x256x64x128.Idx → EReal) (ix4 a ch p q)
      = (V c main_arg0 : S16x256x128x128.Idx → EReal) (ix4 ⟨t.val / 2, hb⟩ ch ⟨t.val % 2 * 64 + p.val, hrow⟩ q) := by
    show (V c main_arg0 : S16x256x128x128.Idx → EReal) (((cfg1.win 0).blk t).view.emb (ix4 a ch p q)) = _
    refine congrArg (V c main_arg0 : S16x256x128x128.Idx → EReal) (funext fun e => Fin.ext ?_)
    match e with
    | ⟨0, _⟩ => show win1_0.index t (0 : Fin 4) * 1 + 1 * a.val = t.val / 2; omega
    | ⟨1, _⟩ => show win1_0.index t (1 : Fin 4) * 256 + 1 * ch.val = ch.val; omega
    | ⟨2, _⟩ => show win1_0.index t (2 : Fin 4) * 64 + 1 * p.val = t.val % 2 * 64 + p.val; omega
    | ⟨3, _⟩ => show win1_0.index t (3 : Fin 4) * 128 + 1 * q.val = q.val; omega
  have hg : (iblk1 V c 1 t : S1x256x1x1.Idx → EReal) (ix4 a ch 0 0)
      = (V c main_v2 : S16x256x1x1.Idx → EReal) (ix4 ⟨t.val / 2, hb⟩ ch 0 0) := by
    show (V c main_v2 : S16x256x1x1.Idx → EReal) (((cfg1.win 1).blk t).view.emb (ix4 a ch 0 0)) = _
    refine congrArg (V c main_v2 : S16x256x1x1.Idx → EReal) (funext fun e => Fin.ext ?_)
    match e with
    | ⟨0, _⟩ => show win1_1.index t (0 : Fin 4) * 1 + 1 * a.val = t.val / 2; omega
    | ⟨1, _⟩ => show win1_1.index t (1 : Fin 4) * 256 + 1 * ch.val = ch.val; omega
    | ⟨2, _⟩ => show win1_1.index t (2 : Fin 4) * 1 + 1 * 0 = 0; omega
    | ⟨3, _⟩ => show win1_1.index t (3 : Fin 4) * 1 + 1 * 0 = 0; omega
  show k1_pay1 (F := Ideal) (iblk1 V c 0 t) (iblk1 V c 1 t) (ix4 a ch p q)
    = scaledOf V c (((cfg1.win 2).blk t).view.emb (ix4 a ch p q))
  rw [hemb]
  refine (scale_payload (iblk1 V c 0 t) (iblk1 V c 1 t) a ch p q).trans ?_
  rw [hx, hg]
  rfl

/-- Every entry of the result is in some point's block: entry (b, c, h, w) in that of point 2b + h / 64. -/
theorem scaled_cover (i : S16x256x128x128.Idx) :
    ∃ t : Fin cfg1.N, (cfg1.win 2).flush t = true ∧ i ∈ ((cfg1.win 2).blk t).view.set := by
  have hN : cfg1.N = 32 := N_1
  have h0 : (i 0).val < 16 := (i 0).isLt
  have h1 : (i 1).val < 256 := (i 1).isLt
  have h2 : (i 2).val < 128 := (i 2).isLt
  have h3 : (i 3).val < 128 := (i 3).isLt
  obtain ⟨t, htv⟩ : ∃ t : Fin cfg1.N, t.val = (i 0).val * 2 + (i 2).val / 64 :=
    ⟨⟨(i 0).val * 2 + (i 2).val / 64, by omega⟩, rfl⟩
  obtain ⟨-, -, -, -, -, -, -, -, e20, e21, e22, e23⟩ := index_maps1 t
  refine ⟨t, flush1_2 t, ?_⟩
  show i ∈ ((View.whole main_v3).slice (win1_2.rect t)).set
  rw [View.set_slice_whole, Rect.mem_set_unit]
  intro a
  match a with
  | ⟨0, _⟩ => show win1_2.index t (0 : Fin 4) * 1 ≤ (i 0).val ∧ (i 0).val < win1_2.index t (0 : Fin 4) * 1 + 1; omega
  | ⟨1, _⟩ => show win1_2.index t (1 : Fin 4) * 256 ≤ (i 1).val ∧ (i 1).val < win1_2.index t (1 : Fin 4) * 256 + 256; omega
  | ⟨2, _⟩ => show win1_2.index t (2 : Fin 4) * 64 ≤ (i 2).val ∧ (i 2).val < win1_2.index t (2 : Fin 4) * 64 + 64; omega
  | ⟨3, _⟩ => show win1_2.index t (3 : Fin 4) * 128 ≤ (i 3).val ∧ (i 3).val < win1_2.index t (3 : Fin 4) * 128 + 128; omega

/-- The result array after the second region. -/
theorem scaled_array (c : Dev nD) : (dat1 V c).arrAt 2 cfg1.N = scaledOf V c :=
  (dat1 V c).arrAt_eq_of_cover 2 (scaledOf V c) (fun t _ => flushed_scaled V c t) scaled_cover

end Cert.KernelIdeal.ScaleValue

end
-- ==== Proof.ValueRun.lean ====
/-
  The kernel's run, with its result named.

  The program is two host reshapes (the biases as [1, 16] and [1, 256] rows), the first region and the second region.
  Followed through: the first region finds the arguments as launched and the two bias rows, and leaves the gate array of
  the specification; the second region finds x as launched and that gate array, and leaves x times the gates. So every
  weakly fair execution ends with the result buffer at the specification's gated array of the five arguments as
  launched, and the arguments unchanged.
-/
import proofs.«103084_j661424963697_1_alg».proof.Proof.GateArray
import proofs.«103084_j661424963697_1_alg».proof.Proof.ScaleArray
import Idealize.ShloMosaic.Lib.StableHlo.Run

set_option maxRecDepth 16384

noncomputable section

namespace Cert.KernelIdeal.ValueRun

open Cert.KernelIdeal Cert.KernelIdeal.Gen Cert.KernelIdeal.GateValue Cert.KernelIdeal.ScaleValue
open Idealize.ShloMosaic Idealize.ShloMosaic.TcCoe Idealize.ShloMosaic.Tactic Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.GateSpec

local notation "𝕄" => MT nD τ sig Unit (Elt Ideal) ℕ (UR sig nD τ) ℕ

variable (m : (ℓ : Loc nD τ sig) → Buf (Elt Ideal) ℓ) (ρ : Dev nD → PrngReg)

/-! ## What the first region finds: the arguments as launched, the biases as rows -/

theorem entry_x (c : Dev nD) : V1 m ρ c main_arg0 = m ((c : Thread nD τ).loc main_arg0) := by
  show StableHlo.after hostOps0 (W0 m ρ c) (Proc.devRef .tc main_arg0) = _
  after_results <;> rfl

theorem entry_w1 (c : Dev nD) : V1 m ρ c main_arg1 = m ((c : Thread nD τ).loc main_arg1) := by
  show StableHlo.after hostOps0 (W0 m ρ c) (Proc.devRef .tc main_arg1) = _
  after_results <;> rfl

theorem entry_w2 (c : Dev nD) : V1 m ρ c main_arg3 = m ((c : Thread nD τ).loc main_arg3) := by
  show StableHlo.after hostOps0 (W0 m ρ c) (Proc.devRef .tc main_arg3) = _
  after_results <;> rfl

/-- The first bias row is the [16] bias recast as [1, 16]. -/
theorem entry_b1 (c : Dev nD) :
    (V1 m ρ c main_v0 : S1x16.Idx → EReal) = shapeCast S1x16 (m ((c : Thread nD τ).loc main_arg2)) shapeCasts_S16_S1x16 := by
  show StableHlo.after hostOps0 (W0 m ρ c) (Proc.devRef .tc main_v0) = _
  after_results <;> rfl

/-- The second bias row is the [256] bias recast as [1, 256]. -/
theorem entry_b2 (c : Dev nD) :
    (V1 m ρ c main_v1 : S1x256.Idx → EReal) = shapeCast S1x256 (m ((c : Thread nD τ).loc main_arg4)) shapeCasts_S256_S1x256 := by
  show StableHlo.after hostOps0 (W0 m ρ c) (Proc.devRef .tc main_v1) = _
  after_results <;> rfl

/-- Entry (0, r) of the first bias row is entry r of the bias. -/
theorem bias_row1 (c : Dev nD) (r : Fin 16) :
    (V1 m ρ c main_v0 : S1x16.Idx → EReal) (ix2 0 r) = (m ((c : Thread nD τ).loc main_arg2) : S16.Idx → EReal) (ix1 r) :=
  (congrFun (entry_b1 m ρ c) (ix2 0 r)).trans (shapeCast_apply _ _ (ix2 0 r) (ix1 r) (by
    rw [Shape.rowMajor_val_one, Shape.rowMajor_val_two]
    show r.val = 0 * 16 + r.val
    omega))

/-- Entry (0, c) of the second bias row is entry c of the bias. -/
theorem bias_row2 (c : Dev nD) (ch : Fin 256) :
    (V1 m ρ c main_v1 : S1x256.Idx → EReal) (ix2 0 ch) = (m ((c : Thread nD τ).loc main_arg4) : S256.Idx → EReal) (ix1 ch) :=
  (congrFun (entry_b2 m ρ c) (ix2 0 ch)).trans (shapeCast_apply _ _ (ix2 0 ch) (ix1 ch) (by
    rw [Shape.rowMajor_val_one, Shape.rowMajor_val_two]
    show ch.val = 0 * 256 + ch.val
    omega))

/-- So the gates the first region leaves are the specification's gate array of the arguments as launched. -/
theorem gates_entry (c : Dev nD) :
    gatesOf (V1 m ρ) c = gateArr (m ((c : Thread nD τ).loc main_arg0)) (m ((c : Thread nD τ).loc main_arg1))
      (m ((c : Thread nD τ).loc main_arg2)) (m ((c : Thread nD τ).loc main_arg3)) (m ((c : Thread nD τ).loc main_arg4)) := by
  have h1 : (fun r : Fin 16 => (V1 m ρ c main_v0 : S1x16.Idx → EReal) (ix2 0 r))
      = fun r => (m ((c : Thread nD τ).loc main_arg2) : S16.Idx → EReal) (ix1 r) := funext (bias_row1 m ρ c)
  have h2 : (fun ch : Fin 256 => (V1 m ρ c main_v1 : S1x256.Idx → EReal) (ix2 0 ch))
      = fun ch => (m ((c : Thread nD τ).loc main_arg4) : S256.Idx → EReal) (ix1 ch) := funext (bias_row2 m ρ c)
  funext i
  unfold gatesOf gateArr gate
  rw [h1, h2, entry_x m ρ c, entry_w1 m ρ c, entry_w2 m ρ c]

/-! ## What the second region finds: x as launched, the gates the first region left -/

theorem second_x (c : Dev nD) : V2 m ρ c main_arg0 = m ((c : Thread nD τ).loc main_arg0) :=
  ((W2_arr m ρ c 0).trans (((dat0 (V1 m ρ) c).arrAt_in 0 rfl _).trans (A_eq0 (V1 m ρ) c 0))).trans (entry_x m ρ c)

theorem second_gates (c : Dev nD) : V2 m ρ c main_v2 = gatesOf (V1 m ρ) c :=
  (W2_arr m ρ c 5).trans (gates_array (V1 m ρ) c)

/-- The result buffer after the second region: the gated array of the arguments as launched. -/
theorem result_contents (c : Dev nD) :
    W3 m ρ c (Proc.devRef .tc main_v3) = gated (m ((c : Thread nD τ).loc main_arg0)) (m ((c : Thread nD τ).loc main_arg1))
      (m ((c : Thread nD τ).loc main_arg2)) (m ((c : Thread nD τ).loc main_arg3)) (m ((c : Thread nD τ).loc main_arg4)) := by
  refine (W3_arr m ρ c 2).trans ((scaled_array (V2 m ρ) c).trans ?_)
  unfold scaledOf
  rw [second_x m ρ c, second_gates m ρ c, gates_entry m ρ c]
  rfl

/-! ## The run -/

set_option backward.isDefEq.respectTransparency.types false in
/-- From any memory with zero counters, every weakly fair execution of the program terminates, nothing faulting, with
    the result buffer at the gated array of the arguments as launched and the arguments unchanged: the launch over the
    program's three segments, the last thread state read against the final state, the result buffer by
    `result_contents` and each argument by its walk back to the launch memory. -/
theorem run : θ_run defs (onTc (τ := τ) (main (F := Ideal))) ⟨m, fun _ => 0, ρ⟩ (fun r => ∀ c : Dev nD,
      r.2.mem ((c.tc : Thread nD τ).loc main_v3) = gated (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v3 (by decide))).trans (result_contents m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Cert.KernelIdeal.ValueRun

end
-- ==== Proof.lean ====
/-
  A squeeze-and-excite gate over x of shape [16, 256, 128, 128]: the kernel against its reference, on the extended reals.

  Both programs compute, for every batch entry b and channel c, the mean μ[b, c] of x[b, c, ·, ·] over the 128 × 128
  spatial positions (the sum divided by 16384); the hidden layer h[b, r] = max(Σ_c μ[b, c] · w1[r, c] + b1[r], 0) over 16
  units; the gate g[b, c] = 1 / (1 + e^(-(Σ_r h[b, r] · w2[c, r] + b2[c]))); and the result x[b, c, h, w] · g[b, c].

  The kernel does it in two passes. The first runs once per batch entry: it sums that entry's [1, 256, 128, 128] block over
  its two spatial axes, divides by 16384, takes the two matrix products into zero accumulators with the biases read from
  [1, 16] and [1, 256] rows, and stores the logistic of the result as that entry's [1, 256, 1, 1] gate column. The second runs
  over 32 blocks of 64 rows: each block of x times its batch entry's gate column broadcast over rows and columns. The
  reference does the same on whole arrays, its sum starting from a zero initial value and its logistic spelt as
  negate, exponential, add one, divide one by it.

  Nothing separates the two but arrangement: the same sums over the same index sets (a sum over two axes is the double
  sum over their coordinates, on both sides), a zero initial value that adds nothing, a matrix product per batch entry
  against the product of all entries at once, and the logistic function against its own definition. No law used needs
  the inputs finite, so the precondition is never opened. The kernel's idealization rewrote nothing, so it is preserved
  trivially; the three frames are the generated ones, the reference's being its generated run with the result dropped.

  The modules: Spec (the gate, stated once), LibPoolSum (a sum over the last two of four axes as a double sum),
  RefValue (the reference computes the gated array), GatePayload (the two kernel bodies read at an index), GateArray and
  ScaleArray (what each pass leaves in its output array), ValueRun (the kernel's run with its result named).
-/
import proofs.«103084_j661424963697_1_alg».proof.Defs
import proofs.«103084_j661424963697_1_alg».proof.Proof.Gen.Kernel
import proofs.«103084_j661424963697_1_alg».proof.Proof.Gen.Kernel.Skeleton
import proofs.«103084_j661424963697_1_alg».proof.Proof.Gen.Kernel.Launch
import proofs.«103084_j661424963697_1_alg».proof.Proof.Gen.Kernel.Points
import proofs.«103084_j661424963697_1_alg».proof.Proof.Gen.Kernel.Frame
import proofs.«103084_j661424963697_1_alg».proof.Proof.Gen.KernelIdeal
import proofs.«103084_j661424963697_1_alg».proof.Proof.Gen.KernelIdeal.Skeleton
import proofs.«103084_j661424963697_1_alg».proof.Proof.Gen.KernelIdeal.Launch
import proofs.«103084_j661424963697_1_alg».proof.Proof.Gen.KernelIdeal.Points
import proofs.«103084_j661424963697_1_alg».proof.Proof.Gen.KernelIdeal.Frame
import proofs.«103084_j661424963697_1_alg».proof.Proof.Gen.ReferenceIdeal
import proofs.«103084_j661424963697_1_alg».proof.Proof.Gen.ReferenceIdeal.Run
import proofs.«103084_j661424963697_1_alg».proof.Proof.Gen.ReferenceIdeal.Read
import proofs.«103084_j661424963697_1_alg».proof.Proof.Gen.Pre_finite_inputs
import proofs.«103084_j661424963697_1_alg».proof.Proof.RefValue
import proofs.«103084_j661424963697_1_alg».proof.Proof.ValueRun
import Idealize.ShloMosaic.Adequacy
import Idealize.ShloMosaic.Init

noncomputable section

namespace Cert.Proof

open Idealize.ShloMosaic Idealize.SL.Sem

/-- The word-level kernel terminates without a fault and leaves its arguments as launched. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation of the kernel: nothing to preserve. -/
theorem preserves : Cert.preserves_Kernel_KernelIdeal := trivial

/-- From memories that agree on the five arguments, the kernel's result buffer ends at the gated array of its
    arguments (the kernel's run, followed through its two passes) and the reference's at the same function of its own
    (its run, read stage by stage): equal element by element. -/
theorem algebraic : Cert.algebraic_KernelIdeal_ReferenceIdeal := by
  intro m ρ m' ρ' _ hagree
  refine ⟨_, Cert.KernelIdeal.ValueRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
